-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 44
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x64, .f32⟩
  | .hbm, ⟨43, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.WholeRun.lean ====
/-
  The whole program's run with its result named.

  The program is four segments: the first neighbourhood aggregation on the host, the first dense layer as a
  pipelined region, the second aggregation on the host, the second dense layer as a region.  Every weakly fair
  execution terminates without a fault; at the end every unscoped buffer holds the contents of the last segment
  boundary.  Here that fact is read at the result buffer as well as at the eight arguments: the result is what the
  second region's write-backs leave, and the arguments are as launched.
-/
import proofs.«124877_j31799937860194_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution ends with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.BodyEntry.lean ====
/-
  The two kernel bodies read at one entry, at the ideal instance.

  Each body loads a block of 5000 rows `x0`, a whole weight matrix `x1` and a one-row bias `x2`, rounds the first
  two to bf16 (the identity on the extended reals), multiplies them into a zero accumulator, adds the bias row
  broadcast down the rows, and — in the first layer only — takes the maximum with zero.  So the entry `(p, j)` of
  what it stores is `∑ q, x0 (p, q) · x1 (q, j) + x2 (0, j)`, clamped below at zero in the first layer: it depends
  on row `p` of the block only.
-/
import proofs.«124877_j31799937860194_1_alg».proof.Proof.Gen.KernelIdeal.Skeleton
import proofs.«124877_j31799937860194_1_alg».proof.Proof.LibPlainDot
import Idealize.ShloMosaic.Lib.ValueLayout
import Idealize.ShloMosaic.Lib.Pipeline.Value

noncomputable section

namespace Cert.KernelIdeal.Dense

open Idealize.ShloMosaic Idealize.ShloMosaic.ValueIdx Cert.KernelIdeal Cert.KernelIdeal.Gen

/-- First layer: the stored block at `(p, j)` is the row-by-column product plus the bias entry, clamped at zero. -/
theorem layer1_entry (x0 : Vec Ideal S5000x128 .f32) (x1 : Vec Ideal S128x128 .f32) (x2 : Vec Ideal S1x128 .f32)
    (p : Fin 5000) (j : Fin 128) :
    k0_pay1 (F := Ideal) x0 x1 x2 (ix2 p j)
      = max ((∑ q : Fin 128, x0 (ix2 p q) * x1 (ix2 q j)) + x2 (ix2 (0 : Fin 1) j)) 0 := by
  unfold k0_pay1
  refine (maximumf_apply _ _ _).trans ?_
  refine congrArg₂ max ?_ ?_
  · refine (addf_apply _ _ _).trans ?_
    refine congrArg₂ (· + ·) ?_ ?_
    · refine (Cert.PlainDot.matmul_zero_ix2 _ rfl none _ _ p j).trans ?_
      refine Finset.sum_congr rfl fun q _ => ?_
      refine congrArg₂ (· * ·) ?_ rfl
      exact congrFun (shapeCast_self x0 _) (ix2 p q)
    · refine (broadcastTo_1b_ab_apply _ _ p j).trans ?_
      refine (congrFun (shapeCast_self _ _) _).trans ?_
      exact congrFun (shapeCast_self x2 _) _
  · exact Ideal.ofBits_zero_f32

/-- Second layer: the stored block at `(p, j)` is the row-by-column product plus the bias entry. -/
theorem layer2_entry (x0 : Vec Ideal S5000x128 .f32) (x1 : Vec Ideal S128x64 .f32) (x2 : Vec Ideal S1x64 .f32)
    (p : Fin 5000) (j : Fin 64) :
    k1_pay1 (F := Ideal) x0 x1 x2 (ix2 p j)
      = (∑ q : Fin 128, x0 (ix2 p q) * x1 (ix2 q j)) + x2 (ix2 (0 : Fin 1) j) := by
  unfold k1_pay1
  refine (addf_apply _ _ _).trans ?_
  refine congrArg₂ (· + ·) ?_ ?_
  · refine (Cert.PlainDot.matmul_zero_ix2 _ rfl none _ _ p j).trans ?_
    refine Finset.sum_congr rfl fun q _ => ?_
    refine congrArg₂ (· * ·) ?_ rfl
    exact congrFun (shapeCast_self x0 _) (ix2 p q)
  · refine (broadcastTo_1b_ab_apply _ _ p j).trans ?_
    refine (congrFun (shapeCast_self _ _) _).trans ?_
    exact congrFun (shapeCast_self x2 _) _

end Cert.KernelIdeal.Dense

end
-- ==== Proof.Spec.lean ====
/-
  The two dense layers of the network as whole-array functions on the extended reals.

  A dense layer sends a feature matrix `h` (one row per node), a weight matrix `w` and a bias `b` (one entry per
  output column) to the matrix whose entry `(p, j)` is `∑ q, h (p, q) · w (q, j) + b j`; the first layer clamps that
  at zero from below.  Entry `(p, j)` reads row `p` of `h` only, which is why a kernel may compute the layer block
  of rows by block of rows.
-/
import Idealize.ShloMosaic.Lib.ValueIdx
import Idealize.ShloMosaic.PureOps.Ideal

noncomputable section

namespace Cert.Gcn

open Idealize.ShloMosaic Idealize.ShloMosaic.ValueIdx

variable {m k n : Nat}

/-- One entry of a dense layer: row `p` of the features against column `j` of the weights, plus the bias at `j`. -/
def affineAt (h : (⟨2, ![m, k]⟩ : Shape).Idx → EReal) (w : (⟨2, ![k, n]⟩ : Shape).Idx → EReal) (b : Fin n → EReal)
    (p : Fin m) (j : Fin n) : EReal :=
  (∑ q : Fin k, h (ix2 p q) * w (ix2 q j)) + b j

/-- The dense layer without activation, as an array. -/
def affine (h : (⟨2, ![m, k]⟩ : Shape).Idx → EReal) (w : (⟨2, ![k, n]⟩ : Shape).Idx → EReal) (b : Fin n → EReal) :
    (⟨2, ![m, n]⟩ : Shape).Idx → EReal :=
  fun i => affineAt h w b (i 0) (i 1)

/-- The dense layer followed by the rectifier, as an array. -/
def affineRelu (h : (⟨2, ![m, k]⟩ : Shape).Idx → EReal) (w : (⟨2, ![k, n]⟩ : Shape).Idx → EReal) (b : Fin n → EReal) :
    (⟨2, ![m, n]⟩ : Shape).Idx → EReal :=
  fun i => max (affineAt h w b (i 0) (i 1)) 0

theorem affine_ix2 (h : (⟨2, ![m, k]⟩ : Shape).Idx → EReal) (w : (⟨2, ![k, n]⟩ : Shape).Idx → EReal) (b : Fin n → EReal)
    (p : Fin m) (j : Fin n) : affine h w b (ix2 p j) = affineAt h w b p j := rfl

theorem affineRelu_ix2 (h : (⟨2, ![m, k]⟩ : Shape).Idx → EReal) (w : (⟨2, ![k, n]⟩ : Shape).Idx → EReal) (b : Fin n → EReal)
    (p : Fin m) (j : Fin n) : affineRelu h w b (ix2 p j) = max (affineAt h w b p j) 0 := rfl

end Cert.Gcn

end
-- ==== Proof.Layer1Blocks.lean ====
/-
  The first dense layer's region, from blocks to the whole array.

  The region runs the first layer's body at twenty grid points; point `t` loads rows `5000 t … 5000 t + 4999` of the
  aggregated features, the whole weight matrix and the bias row, and writes back the same rows of the output.  Each
  written block is the matching block of ONE array — the rectified dense layer of the arrays the region finds — and the
  twenty blocks tile the output, so the output array ends holding that layer.
-/
import proofs.«124877_j31799937860194_1_alg».proof.Proof.Gen.KernelIdeal.Frame
import proofs.«124877_j31799937860194_1_alg».proof.Proof.BodyEntry
import proofs.«124877_j31799937860194_1_alg».proof.Proof.Spec

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.Gcn
open Idealize.ShloMosaic.Pipeline (Dat)

-- the region's entry contents: any valuation of the TensorCore's buffers
variable (V : (c : Dev nD) → (b : Ref sig .tc) → Buf (Elt Ideal) ((c : Thread nD τ).loc b))

theorem zeros0 : (![0, 0] : Fin 2 → Nat) = fun _ => 0 := funext fun a => by fin_cases a <;> rfl

/-- The layer of the arrays the region finds: features in `main_v12`, weights in `main_arg4`, the bias the one row of
    `main_v13`. -/
def layer0 (c : Dev nD) : S100000x128.Idx → EReal :=
  affineRelu (V c main_v12) (V c main_arg4) (fun j => V c main_v13 (ix2 (0 : Fin 1) j))

/-- One stored entry against one entry of the layer: when row `y 0` of the loaded block is row `i 0` of the feature
    array, column `y 1` of the loaded weights is column `i 1` of the weight array, and the loaded bias row at `y 1` is
    the bias at `i 1`, the body's value at `y` is the layer's at `i`. -/
theorem block_entry0 (h : S100000x128.Idx → EReal) (w : S128x128.Idx → EReal) (bias : Fin 128 → EReal)
    (x0 : Vec Ideal S5000x128 .f32) (x1 : Vec Ideal S128x128 .f32) (x2 : Vec Ideal S1x128 .f32)
    (y : S5000x128.Idx) (i : S100000x128.Idx)
    (h0 : ∀ q : Fin 128, x0 (ix2 (y 0) q) = h (ix2 (i 0) q))
    (h1 : ∀ q : Fin 128, x1 (ix2 q (y 1)) = w (ix2 q (i 1)))
    (h2 : x2 (ix2 (0 : Fin 1) (y 1)) = bias (i 1)) :
    k0_pay1 (F := Ideal) x0 x1 x2 y = affineRelu h w bias i := by
  obtain ⟨p, j, rfl⟩ : ∃ (p : Fin 5000) (j : Fin 128), y = ix2 p j := ⟨y 0, y 1, eq_ix2 y⟩
  refine (layer1_entry x0 x1 x2 p j).trans ?_
  refine congrArg₂ max ?_ rfl
  refine congrArg₂ (· + ·) (Finset.sum_congr rfl fun q _ => ?_) h2
  exact congrArg₂ (· * ·) (h0 q) (h1 q)

/-- The printed index maps, decided over the grid: the feature window and the output window are at block row `t`, the
    weight and bias windows stay at the origin. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the layer. -/
theorem flushed0 (c : Dev nD) (t : Fin cfg0.N) :
    (dat0 V c).flushed 3 t = ((cfg0.win 3).blk t).view.read (Elt Ideal) (layer0 V c) := by
  show (cfg0.win 3).cut (grid0.coords t) ((dat0 V c).after 3 t) = _
  rw [after0_3]
  unfold out0_3
  rw [View.canon_unit_zero zeros0]
  simp only [View.ld_unit_zero (S := S5000x128) zeros0, View.ld_unit_zero (S := S128x128) zeros0, View.ld_unit_zero (S := S1x128) zeros0]
  obtain ⟨e00, e01, e10, e11, e20, e21, e30, e31⟩ := index0 t
  funext y
  show k0_pay1 (F := Ideal) (iblk0 V c 0 t) (iblk0 V c 1 t) (iblk0 V c 2 t) y = layer0 V c (((cfg0.win 3).blk t).view.emb y)
  unfold layer0
  refine block_entry0 (V c main_v12) (V c main_arg4) (fun j => V c main_v13 (ix2 (0 : Fin 1) j))
    (iblk0 V c 0 t) (iblk0 V c 1 t) (iblk0 V c 2 t) y (((cfg0.win 3).blk t).view.emb y) (fun q => ?_) (fun q => ?_) ?_
  · show V c main_v12 (((cfg0.win 0).blk t).view.emb (ix2 (y 0) q)) = V c main_v12 (ix2 ((((cfg0.win 3).blk t).view.emb y) 0) q)
    refine congrArg (V c main_v12) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * q.val = q.val; omega
  · show V c main_arg4 (((cfg0.win 1).blk t).view.emb (ix2 q (y 1))) = V c main_arg4 (ix2 q ((((cfg0.win 3).blk t).view.emb y) 1))
    refine congrArg (V c main_arg4) (funext fun a => Fin.ext ?_)
    match a with
    | ⟨0, _⟩ => show win0_1.index t (0 : Fin 2) * 128 + 1 * q.val = q.val; omega
    | ⟨1, _⟩ => show win0_1.index t (1 : Fin 2) * 128 + 1 * (y 1).val = win0_3.index t (1 : Fin 2) * 128 + 1 * (y 1).val; omega
  · show V c main_v13 (((cfg0.win 2).blk t).view.emb (ix2 (0 : Fin 1) (y 1))) = V c main_v13 (ix2 (0 : Fin 1) ((((cfg0.win 3).blk t).view.emb y) 1))
    refine congrArg (V c main_v13) (funext fun a => Fin.ext ?_)
    match a with
    | ⟨0, _⟩ => show win0_2.index t (0 : Fin 2) * 1 + 1 * 0 = 0; omega
    | ⟨1, _⟩ => show win0_2.index t (1 : Fin 2) * 128 + 1 * (y 1).val = win0_3.index t (1 : Fin 2) * 128 + 1 * (y 1).val; omega

/-- An index of the output array is in point `t`'s block iff each coordinate is in the block's range on its axis. -/
theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Row `r` of the output lies in the block of point `r / 5000`: the twenty blocks of 5000 rows tile the array. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hk : (i 0).val / 5000 < cfg0.N := Nat.lt_of_lt_of_eq (by omega : (i 0).val / 5000 < 20) N_0.symm
  obtain ⟨-, -, -, -, -, -, e30, e31⟩ := index0 ⟨(i 0).val / 5000, hk⟩
  have e30' : win0_3.index ⟨(i 0).val / 5000, hk⟩ (0 : Fin 2) = (i 0).val / 5000 := e30
  refine ⟨⟨(i 0).val / 5000, hk⟩, flush0_3 _, ?_⟩
  rw [mem_block0]
  intro a
  match a with
  | ⟨0, _⟩ =>
    show win0_3.index ⟨(i 0).val / 5000, hk⟩ (0 : Fin 2) * 5000 ≤ (i 0).val ∧ (i 0).val < win0_3.index ⟨(i 0).val / 5000, hk⟩ (0 : Fin 2) * 5000 + 5000
    omega
  | ⟨1, _⟩ =>
    show win0_3.index ⟨(i 0).val / 5000, hk⟩ (1 : Fin 2) * 128 ≤ (i 1).val ∧ (i 1).val < win0_3.index ⟨(i 0).val / 5000, hk⟩ (1 : Fin 2) * 128 + 128
    omega

/-- The output array after the region's write-backs is the layer of the arrays the region found. -/
theorem final0 (c : Dev nD) : (dat0 V c).arrAt 3 cfg0.N = layer0 V c :=
  (dat0 V c).arrAt_eq_of_cover 3 (layer0 V c) (fun t _ => flushed0 V c t) (covered0)

end Cert.KernelIdeal.Dense

end
-- ==== Proof.Layer2Blocks.lean ====
/-
  The second dense layer's region, from blocks to the whole array.

  The region runs the second layer's body at twenty grid points; point `t` loads rows `5000 t … 5000 t + 4999` of the
  twice-aggregated features, the whole weight matrix and the bias row, and writes back the same rows of the output.
  Each written block is the matching block of ONE array — the dense layer of the arrays the region finds — and the
  twenty blocks tile the output, so the output array ends holding that layer.
-/
import proofs.«124877_j31799937860194_1_alg».proof.Proof.Gen.KernelIdeal.Frame
import proofs.«124877_j31799937860194_1_alg».proof.Proof.BodyEntry
import proofs.«124877_j31799937860194_1_alg».proof.Proof.Spec

set_option maxRecDepth 16384

noncomputable section

namespace Cert.KernelIdeal.Dense

open Idealize.ShloMosaic Idealize.ShloMosaic.TcCoe Idealize.ShloMosaic.ValueIdx Idealize.SL.Sem
open Cert.KernelIdeal Cert.KernelIdeal.Gen Cert.Gcn
open Idealize.ShloMosaic.Pipeline (Dat)

-- the region's entry contents: any valuation of the TensorCore's buffers
variable (V : (c : Dev nD) → (b : Ref sig .tc) → Buf (Elt Ideal) ((c : Thread nD τ).loc b))

theorem zeros1 : (![0, 0] : Fin 2 → Nat) = fun _ => 0 := funext fun a => by fin_cases a <;> rfl

/-- The layer of the arrays the region finds: features in `main_v27`, weights in `main_arg6`, the bias the one row of
    `main_v28`. -/
def layer1 (c : Dev nD) : S100000x64.Idx → EReal :=
  affine (V c main_v27) (V c main_arg6) (fun j => V c main_v28 (ix2 (0 : Fin 1) j))

/-- One stored entry against one entry of the layer: when row `y 0` of the loaded block is row `i 0` of the feature
    array, column `y 1` of the loaded weights is column `i 1` of the weight array, and the loaded bias row at `y 1` is
    the bias at `i 1`, the body's value at `y` is the layer's at `i`. -/
theorem block_entry1 (h : S100000x128.Idx → EReal) (w : S128x64.Idx → EReal) (bias : Fin 64 → EReal)
    (x0 : Vec Ideal S5000x128 .f32) (x1 : Vec Ideal S128x64 .f32) (x2 : Vec Ideal S1x64 .f32)
    (y : S5000x64.Idx) (i : S100000x64.Idx)
    (h0 : ∀ q : Fin 128, x0 (ix2 (y 0) q) = h (ix2 (i 0) q))
    (h1 : ∀ q : Fin 128, x1 (ix2 q (y 1)) = w (ix2 q (i 1)))
    (h2 : x2 (ix2 (0 : Fin 1) (y 1)) = bias (i 1)) :
    k1_pay1 (F := Ideal) x0 x1 x2 y = affine h w bias i := by
  obtain ⟨p, j, rfl⟩ : ∃ (p : Fin 5000) (j : Fin 64), y = ix2 p j := ⟨y 0, y 1, eq_ix2 y⟩
  refine (layer2_entry x0 x1 x2 p j).trans ?_
  refine congrArg₂ (· + ·) (Finset.sum_congr rfl fun q _ => ?_) h2
  exact congrArg₂ (· * ·) (h0 q) (h1 q)

/-- The printed index maps, decided over the grid: the feature window and the output window are at block row `t`, the
    weight and bias windows stay at the origin. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer. -/
theorem flushed1 (c : Dev nD) (t : Fin cfg1.N) :
    (dat1 V c).flushed 3 t = ((cfg1.win 3).blk t).view.read (Elt Ideal) (layer1 V c) := by
  show (cfg1.win 3).cut (grid1.coords t) ((dat1 V c).after 3 t) = _
  rw [after1_3]
  unfold out1_3
  rw [View.canon_unit_zero zeros1]
  simp only [View.ld_unit_zero (S := S5000x128) zeros1, View.ld_unit_zero (S := S128x64) zeros1, View.ld_unit_zero (S := S1x64) zeros1]
  obtain ⟨e00, e01, e10, e11, e20, e21, e30, e31⟩ := index1 t
  funext y
  show k1_pay1 (F := Ideal) (iblk1 V c 0 t) (iblk1 V c 1 t) (iblk1 V c 2 t) y = layer1 V c (((cfg1.win 3).blk t).view.emb y)
  unfold layer1
  refine block_entry1 (V c main_v27) (V c main_arg6) (fun j => V c main_v28 (ix2 (0 : Fin 1) j))
    (iblk1 V c 0 t) (iblk1 V c 1 t) (iblk1 V c 2 t) y (((cfg1.win 3).blk t).view.emb y) (fun q => ?_) (fun q => ?_) ?_
  · show V c main_v27 (((cfg1.win 0).blk t).view.emb (ix2 (y 0) q)) = V c main_v27 (ix2 ((((cfg1.win 3).blk t).view.emb y) 0) q)
    refine congrArg (V c main_v27) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * q.val = q.val; omega
  · show V c main_arg6 (((cfg1.win 1).blk t).view.emb (ix2 q (y 1))) = V c main_arg6 (ix2 q ((((cfg1.win 3).blk t).view.emb y) 1))
    refine congrArg (V c main_arg6) (funext fun a => Fin.ext ?_)
    match a with
    | ⟨0, _⟩ => show win1_1.index t (0 : Fin 2) * 128 + 1 * q.val = q.val; omega
    | ⟨1, _⟩ => show win1_1.index t (1 : Fin 2) * 64 + 1 * (y 1).val = win1_3.index t (1 : Fin 2) * 64 + 1 * (y 1).val; omega
  · show V c main_v28 (((cfg1.win 2).blk t).view.emb (ix2 (0 : Fin 1) (y 1))) = V c main_v28 (ix2 (0 : Fin 1) ((((cfg1.win 3).blk t).view.emb y) 1))
    refine congrArg (V c main_v28) (funext fun a => Fin.ext ?_)
    match a with
    | ⟨0, _⟩ => show win1_2.index t (0 : Fin 2) * 1 + 1 * 0 = 0; omega
    | ⟨1, _⟩ => show win1_2.index t (1 : Fin 2) * 64 + 1 * (y 1).val = win1_3.index t (1 : Fin 2) * 64 + 1 * (y 1).val; omega

/-- An index of the output array is in point `t`'s block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29).slice (win1_3.rect t)).set ↔ _
  rw [View.set_slice_whole, Rect.mem_set_unit]
  exact Iff.rfl

/-- Row `r` of the output lies in the block of point `r / 5000`: the twenty blocks of 5000 rows tile the array. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hk : (i 0).val / 5000 < cfg1.N := Nat.lt_of_lt_of_eq (by omega : (i 0).val / 5000 < 20) N_1.symm
  obtain ⟨-, -, -, -, -, -, e30, e31⟩ := index1 ⟨(i 0).val / 5000, hk⟩
  have e30' : win1_3.index ⟨(i 0).val / 5000, hk⟩ (0 : Fin 2) = (i 0).val / 5000 := e30
  refine ⟨⟨(i 0).val / 5000, hk⟩, flush1_3 _, ?_⟩
  rw [mem_block1]
  intro a
  match a with
  | ⟨0, _⟩ =>
    show win1_3.index ⟨(i 0).val / 5000, hk⟩ (0 : Fin 2) * 5000 ≤ (i 0).val ∧ (i 0).val < win1_3.index ⟨(i 0).val / 5000, hk⟩ (0 : Fin 2) * 5000 + 5000
    omega
  | ⟨1, _⟩ =>
    show win1_3.index ⟨(i 0).val / 5000, hk⟩ (1 : Fin 2) * 64 ≤ (i 1).val ∧ (i 1).val < win1_3.index ⟨(i 0).val / 5000, hk⟩ (1 : Fin 2) * 64 + 64
    omega

/-- The output array after the region's write-backs is the layer of the arrays the region found. -/
theorem final1 (c : Dev nD) : (dat1 V c).arrAt 3 cfg1.N = layer1 V c :=
  (dat1 V c).arrAt_eq_of_cover 3 (layer1 V c) (fun t _ => flushed1 V c t) (covered1)

end Cert.KernelIdeal.Dense

end
-- ==== Proof.Aggregate.lean ====
/-
  The neighbourhood aggregation, as the host computes it.

  An edge list (row, column, weight) acts on a feature matrix `x`: every edge `e` adds `val e · x[col e]` into row
  `row e` of a zero matrix (a negative column index first wrapped by the number of nodes).  Both programs apply
  exactly this chain of host operations — twice each —, so it is carried as ONE function and never opened: only the
  feature matrices going in have to be shown equal.
-/
import proofs.«124877_j31799937860194_1_alg».proof.Proof.Gen.KernelIdeal
import Idealize.ShloMosaic.PureOps.Ideal

noncomputable section

namespace Cert.KernelIdeal.Whole

open Idealize.ShloMosaic Cert.KernelIdeal Cert.KernelIdeal.Facts₀

/-- The gather of the edges' source rows, scaled by the edges' weights, scatter-added into the edges' target rows of a
    zero matrix. -/
def agg (x : (⟨S100000x128, .f32⟩ : BufTy).Contents (Elt Ideal)) (row col : (⟨S1600000, .i32⟩ : BufTy).Contents (Elt Ideal))
    (val : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf
      (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 x
        (broadcastInDim S1600000x1 ![0] bcast_S1600000_S1600000x1_0
          (select
            (cmpi .slt col (broadcastInDim S1600000 ![] bcast_S_S1600000 (constantI S_ 32 0#32)))
            (addi col (broadcastInDim S1600000 ![] bcast_S_S1600000 (constantI S_ 32 100000#32)))
            col))))

end Cert.KernelIdeal.Whole

end
-- ==== Proof.Network.lean ====
/-
  The whole network as one function of its eight arguments.

  Aggregate the input features over the edges, apply the first dense layer and the rectifier, aggregate again, apply
  the second dense layer.  Both programs' results are shown to be this function of the argument arrays.
-/
import proofs.«124877_j31799937860194_1_alg».proof.Proof.Aggregate
import proofs.«124877_j31799937860194_1_alg».proof.Proof.Spec
import Idealize.ShloMosaic.Lib.ValueIdx

noncomputable section

namespace Cert.KernelIdeal.Whole

open Idealize.ShloMosaic Idealize.ShloMosaic.ValueIdx Cert.KernelIdeal Cert.Gcn

/-- The first layer's output: the rectified dense layer of the aggregated input features. -/
def hiddenFeatures (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) : (⟨S100000x128, .f32⟩ : BufTy).Contents (Elt Ideal) :=
  affineRelu (m := 100000) (k := 128) (n := 128) (agg x0 x1 x2 x3) x4 (fun j => x5 (ix1 j))

/-- The network's output: the dense layer of the aggregated hidden features. -/
def network (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) : (⟨S100000x64, .f32⟩ : BufTy).Contents (Elt Ideal) :=
  affine (m := 100000) (k := 128) (n := 64) (agg (hiddenFeatures x0 x1 x2 x3 x4 x5) x1 x2 x3) x6 (fun j => x7 (ix1 j))

end Cert.KernelIdeal.Whole

end
-- ==== Proof.KernelValue.lean ====
/-
  The kernel program's result is the network of its arguments.

  The buffer contents are followed through the four segments.  After the first host stretch the first region finds
  the aggregated input features, the first weight matrix as launched, and the first bias as one row; its output is
  the rectified dense layer of those (the region's blocks tile the array).  The second host stretch aggregates that
  output — the edge lists and weights still as launched, since nothing wrote them — and the second region's output,
  the program's result, is the dense layer of what it finds.
-/
import proofs.«124877_j31799937860194_1_alg».proof.Proof.WholeRun
import proofs.«124877_j31799937860194_1_alg».proof.Proof.Layer1Blocks
import proofs.«124877_j31799937860194_1_alg».proof.Proof.Layer2Blocks
import proofs.«124877_j31799937860194_1_alg».proof.Proof.Network
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.ShloMosaic.StableHlo Idealize.SL.Sem
open Cert.KernelIdeal Cert.KernelIdeal.Gen Cert.KernelIdeal.Dense Cert.Gcn

variable (m : (ℓ : Loc nD τ sig) → Buf (Elt Ideal) ℓ) (ρ : Dev nD → PrngReg)

/-! ## A layer depends on its three operands only -/

theorem affineRelu_congr {mm kk nn : Nat} {h h' : (⟨2, ![mm, kk]⟩ : Shape).Idx → EReal} {w w' : (⟨2, ![kk, nn]⟩ : Shape).Idx → EReal}
    {b b' : Fin nn → EReal} (eh : h = h') (ew : w = w') (eb : b = b') : affineRelu h w b = affineRelu h' w' b' := by
  subst eh ew eb; rfl

theorem affine_congr {mm kk nn : Nat} {h h' : (⟨2, ![mm, kk]⟩ : Shape).Idx → EReal} {w w' : (⟨2, ![kk, nn]⟩ : Shape).Idx → EReal}
    {b b' : Fin nn → EReal} (eh : h = h') (ew : w = w') (eb : b = b') : affine h w b = affine h' w' b' := by
  subst eh ew eb; rfl

/-! ## The first region's entry: after the first host stretch -/

/-- The first region finds the aggregated input features in its feature window's array. -/
theorem entry1_features (c : Dev nD) :
    V1 m ρ c main_v12 = agg (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v12) = _
  after_results
  rfl

/-- It finds the first weight matrix as launched. -/
theorem entry1_weights (c : Dev nD) : V1 m ρ c main_arg4 = (m ((c.tc : Thread nD τ).loc main_arg4)) := by
  show StableHlo.after hostOps0 (W0 m ρ c) (Proc.devRef .tc main_arg4) = _
  after_results

/-- It finds the first bias vector recast as one row. -/
theorem entry1_bias (c : Dev nD) : V1 m ρ c main_v13 = shapeCast S1x128 (m ((c.tc : Thread nD τ).loc main_arg5)) Facts₀.shapeCasts_S128_S1x128 := by
  show StableHlo.after hostOps0 (W0 m ρ c) (Proc.devRef .tc main_v13) = _
  after_results
  rfl

/-- The first region leaves the hidden features in its output array. -/
theorem exit1 (c : Dev nD) :
    W2 m ρ c (Proc.devRef .tc main_v14) = hiddenFeatures (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W2_arr m ρ c 3).trans ((final0 (V1 m ρ) c).trans ?_)
  unfold layer0 hiddenFeatures
  refine affineRelu_congr (entry1_features m ρ c) (entry1_weights m ρ c) (funext fun j => ?_)
  rw [entry1_bias]
  exact shapeCast_a_1a_apply _ _ (0 : Fin 1) j

/-! ## The second region's entry: after the second host stretch -/

/-- An argument no segment has written so far is as launched at the first region's exit. -/
theorem exit1_arg1 (c : Dev nD) : W2 m ρ c (Proc.devRef .tc main_arg1) = (m ((c.tc : Thread nD τ).loc main_arg1)) :=
  (W2_of_ne m ρ c main_arg1 (by decide)).trans (by
    show StableHlo.after hostOps0 (W0 m ρ c) (Proc.devRef .tc main_arg1) = _
    after_results)
theorem exit1_arg2 (c : Dev nD) : W2 m ρ c (Proc.devRef .tc main_arg2) = (m ((c.tc : Thread nD τ).loc main_arg2)) :=
  (W2_of_ne m ρ c main_arg2 (by decide)).trans (by
    show StableHlo.after hostOps0 (W0 m ρ c) (Proc.devRef .tc main_arg2) = _
    after_results)
theorem exit1_arg3 (c : Dev nD) : W2 m ρ c (Proc.devRef .tc main_arg3) = (m ((c.tc : Thread nD τ).loc main_arg3)) :=
  (W2_of_ne m ρ c main_arg3 (by decide)).trans (by
    show StableHlo.after hostOps0 (W0 m ρ c) (Proc.devRef .tc main_arg3) = _
    after_results)
theorem exit1_arg6 (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results)
theorem exit1_arg7 (c : Dev nD) : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results)

set_option maxHeartbeats 1600000 in
/-- The second region finds, in its feature window's array, the aggregation of what the first region left. -/
theorem entry2_features_raw (c : Dev nD) :
    V3 m ρ c main_v27 = agg (W2 m ρ c (Proc.devRef .tc main_v14)) (W2 m ρ c (Proc.devRef .tc main_arg1)) (W2 m ρ c (Proc.devRef .tc main_arg2)) (W2 m ρ c (Proc.devRef .tc main_arg3)) := by
  show StableHlo.after hostOps1 (W2 m ρ c) (Proc.devRef .tc main_v27) = _
  after_results
  rfl

/-- That is the aggregated hidden features: the edge lists and weights are still as launched. -/
theorem entry2_features (c : Dev nD) :
    V3 m ρ c main_v27 = agg (hiddenFeatures (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg3)) := by
  rw [entry2_features_raw, exit1, exit1_arg1, exit1_arg2, exit1_arg3]

/-- It finds the second weight matrix as launched. -/
theorem entry2_weights (c : Dev nD) : V3 m ρ c main_arg6 = (m ((c.tc : Thread nD τ).loc main_arg6)) := by
  show StableHlo.after hostOps1 (W2 m ρ c) (Proc.devRef .tc main_arg6) = _
  after_results
  exact exit1_arg6 m ρ c

/-- It finds the second bias vector recast as one row. -/
theorem entry2_bias (c : Dev nD) : V3 m ρ c main_v28 = shapeCast S1x64 (m ((c.tc : Thread nD τ).loc main_arg7)) Facts₀.shapeCasts_S64_S1x64 := by
  have raw : V3 m ρ c main_v28 = shapeCast S1x64 (W2 m ρ c (Proc.devRef .tc main_arg7)) Facts₀.shapeCasts_S64_S1x64 := by
    show StableHlo.after hostOps1 (W2 m ρ c) (Proc.devRef .tc main_v28) = _
    after_results
    rfl
  rw [raw, exit1_arg7]

/-- The second region leaves the network's output in its output array, the program's result buffer. -/
theorem exit2 (c : Dev nD) :
    W4 m ρ c (Proc.devRef .tc main_v29)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 3).trans ((final1 (V3 m ρ) c).trans ?_)
  unfold layer1 network
  refine affine_congr (entry2_features m ρ c) (entry2_weights m ρ c) (funext fun j => ?_)
  rw [entry2_bias]
  exact shapeCast_a_1a_apply _ _ (0 : Fin 1) j

/-! ## The run -/

/-- Every weakly fair execution of the kernel program terminates without a fault, with the result buffer at the
    network of the launch arguments and the arguments unchanged. -/
theorem run : θ_run defs (onTc (τ := τ) (main (F := Ideal))) ⟨m, fun _ => 0, ρ⟩ (fun r => ∀ c : Dev nD,
      r.2.mem ((c.tc : Thread nD τ).loc main_v29)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (exit2 m ρ c), (h c).2⟩) (run_named m ρ)

end Cert.KernelIdeal.Whole

end
-- ==== Proof.RefValue.lean ====
/-
  The reference program's result is the network of its arguments.

  The reference is one straight line of host operations.  Its two aggregation stages are, operation for operation,
  the aggregation the kernel program's host stretches apply (the same chain, so the two are equal by unfolding the
  stage names and nothing else).  Its first dense stage — a whole matrix product, the bias broadcast in two steps, a
  maximum with a zero array — is at every entry the row-by-column sum plus the bias entry clamped at zero; its second
  the same without the clamp.
-/
import proofs.«124877_j31799937860194_1_alg».proof.Proof.Gen.ReferenceIdeal.Read
import proofs.«124877_j31799937860194_1_alg».proof.Proof.Network
import proofs.«124877_j31799937860194_1_alg».proof.Proof.LibPlainDot

noncomputable section

namespace Cert.ReferenceIdeal.RefValue

open Idealize.ShloMosaic Idealize.ShloMosaic.TcCoe Idealize.ShloMosaic.ValueIdx Idealize.SL.Sem
open Cert.ReferenceIdeal Cert.ReferenceIdeal.Read Cert.Gcn
open Cert.KernelIdeal.Whole (agg hiddenFeatures network)

/-! ## The aggregation stages -/

/-- The first aggregation stage is the aggregation of the input features. -/
theorem agg_stage1 (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) :
    val_main_v12 (F := Ideal) x0 x1 x2 x3 = agg x0 x1 x2 x3 := by
  unfold val_main_v12 val_main_v11 val_main_v10 val_main_cst val_main_v9 val_main_v8 val_main_v0 val_main_v7 val_main_v6
    val_main_v5 val_main_v4 val_main_v3 val_main_c_0 val_main_v2 val_main_v1 val_main_c agg
  rfl

/-- The second aggregation stage is the aggregation of the first layer's output. -/
theorem agg_stage2 (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v30 (F := Ideal) x0 x1 x2 x3 x4 x5 = agg (val_main_v17 (F := Ideal) x0 x1 x2 x3 x4 x5) x1 x2 x3 := by
  unfold val_main_v30 val_main_v29 val_main_v28 val_main_cst_3 val_main_v27 val_main_v26 val_main_v18 val_main_v25 val_main_v24
    val_main_v23 val_main_v22 val_main_v21 val_main_c_2 val_main_v20 val_main_v19 val_main_c_1 agg
  rfl

/-! ## The dense stages -/

/-- The first layer's stage, rectifier included, is the hidden features. -/
theorem hidden_stage (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v17 (F := Ideal) x0 x1 x2 x3 x4 x5 = hiddenFeatures x0 x1 x2 x3 x4 x5 := by
  unfold hiddenFeatures
  rw [← agg_stage1]
  funext i
  obtain ⟨p, j, rfl⟩ : ∃ (p : Fin 100000) (j : Fin 128), i = ix2 p j := ⟨i 0, i 1, eq_ix2 i⟩
  rw [affineRelu_ix2, val_main_v17_apply, val_main_v16_apply, val_main_v15_apply, val_main_v14_apply,
    val_main_call0_v0_apply, val_main_call0_cst_apply]
  unfold affineAt
  simp only [Ideal.maximumf_def, Ideal.addf_def, Ideal.ofBits_def, Ideal.ofBits_zero_f32]
  refine congrArg₂ max (congrArg₂ (· + ·) ?_ ?_) rfl
  · unfold val_main_v13
    exact Cert.PlainDot.dotGeneral_ix2 _ rfl none (val_main_v12 (F := Ideal) x0 x1 x2 x3) x4 p j
  · exact congrArg x5 (funext fun a => Fin.ext (by match a with | ⟨0, _⟩ => rfl))

/-- The last stage is the network. -/
theorem network_stage (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) :
    val_main_v34 (F := Ideal) x0 x1 x2 x3 x4 x5 x6 x7 = network x0 x1 x2 x3 x4 x5 x6 x7 := by
  unfold network
  rw [← hidden_stage, ← agg_stage2]
  funext i
  obtain ⟨p, j, rfl⟩ : ∃ (p : Fin 100000) (j : Fin 64), i = ix2 p j := ⟨i 0, i 1, eq_ix2 i⟩
  rw [affine_ix2, val_main_v34_apply, val_main_v33_apply, val_main_v32_apply]
  unfold affineAt
  simp only [Ideal.addf_def]
  refine congrArg₂ (· + ·) ?_ ?_
  · unfold val_main_v31
    exact Cert.PlainDot.dotGeneral_ix2 _ rfl none (val_main_v30 (F := Ideal) x0 x1 x2 x3 x4 x5) x6 p j
  · exact congrArg x7 (funext fun a => Fin.ext (by match a with | ⟨0, _⟩ => rfl))

/-! ## The run -/

/-- Every weakly fair execution of the reference terminates without a fault, with the result buffer at the network
    of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v34)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨by rw [(h c).1, val_main_v34_eq, network_stage], (h c).2⟩)
    (Cert.ReferenceIdeal.Value.run (F := Ideal) m ρ)

end Cert.ReferenceIdeal.RefValue

end
-- ==== Proof.lean ====
/-
  Two-layer graph convolution: a tiled kernel program against its plain reference, on the extended reals.

  Both programs compute `dense₂ (A · relu (dense₁ (A · x)))`, where `A · x` gathers, for every edge, the source
  row of `x` scaled by the edge weight and adds it into the edge's target row, and `dense (h) = h · w + b`.
  The aggregation `A · _` is the same chain of host operations in both programs and is carried as one function.
  The dense layers differ in arrangement only: the kernel program computes each in twenty blocks of 5000 rows, rounding
  its matrix-product operands to bf16 (the identity on the extended reals) and accumulating into a zero matrix, with
  the bias as one row broadcast down the block; the reference takes one whole matrix product and broadcasts the bias
  vector in two steps.  Entry `(p, j)` of a layer reads row `p` of its input only, so the blocks are the blocks of
  one whole-array function and tile it; at every entry both sides are `∑ q, h (p, q) · w (q, j) + b j`, in the first
  layer clamped below at zero.  No law beyond this rearrangement is needed, so finiteness of the inputs is never used.

  The frames of the two kernel programs are the generated ones; the reference's frame is its run with the result
  forgotten; the idealization rewrote nothing, so there is nothing to preserve.
-/
import proofs.«124877_j31799937860194_1_alg».proof.Defs
import proofs.«124877_j31799937860194_1_alg».proof.Proof.Gen.Kernel
import proofs.«124877_j31799937860194_1_alg».proof.Proof.Gen.Kernel.Skeleton
import proofs.«124877_j31799937860194_1_alg».proof.Proof.Gen.Kernel.Launch
import proofs.«124877_j31799937860194_1_alg».proof.Proof.Gen.Kernel.Points
import proofs.«124877_j31799937860194_1_alg».proof.Proof.Gen.Kernel.Frame
import proofs.«124877_j31799937860194_1_alg».proof.Proof.Gen.KernelIdeal
import proofs.«124877_j31799937860194_1_alg».proof.Proof.Gen.KernelIdeal.Skeleton
import proofs.«124877_j31799937860194_1_alg».proof.Proof.Gen.KernelIdeal.Launch
import proofs.«124877_j31799937860194_1_alg».proof.Proof.Gen.KernelIdeal.Points
import proofs.«124877_j31799937860194_1_alg».proof.Proof.Gen.KernelIdeal.Frame
import proofs.«124877_j31799937860194_1_alg».proof.Proof.Gen.ReferenceIdeal
import proofs.«124877_j31799937860194_1_alg».proof.Proof.Gen.ReferenceIdeal.Run
import proofs.«124877_j31799937860194_1_alg».proof.Proof.Gen.ReferenceIdeal.Read
import proofs.«124877_j31799937860194_1_alg».proof.Proof.Gen.Pre_finite_inputs
import proofs.«124877_j31799937860194_1_alg».proof.Proof.KernelValue
import proofs.«124877_j31799937860194_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the network of the arguments in their
    result buffers. -/
theorem algebraic : Cert.algebraic_KernelIdeal_ReferenceIdeal := by
  intro m ρ m' ρ' _ hagree
  refine ⟨fun c => Cert.KernelIdeal.Whole.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
